-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256 : Shape := ⟨1, ![256]⟩
abbrev S16777216 : Shape := ⟨1, ![16777216]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S256 .f32) (main_arg2 : IVec S16777216 32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S256 : Shape := ⟨1, ![256]⟩
abbrev S16777216 : Shape := ⟨1, ![16777216]⟩
abbrev S4096 : Shape := ⟨1, ![4096]⟩
abbrev S_ : Shape := ⟨0, ![]⟩
abbrev S16777216x1 : Shape := ⟨2, ![16777216, 1]⟩
abbrev S4096x4096 : Shape := ⟨2, ![4096, 4096]⟩
abbrev S8192x4096 : Shape := ⟨2, ![8192, 4096]⟩
abbrev S1x4096 : Shape := ⟨2, ![1, 4096]⟩
abbrev S1024x1024 : Shape := ⟨2, ![1024, 1024]⟩
abbrev S2048x1024 : Shape := ⟨2, ![2048, 1024]⟩
abbrev S1x2048 : Shape := ⟨2, ![1, 2048]⟩
abbrev S1024x2048 : Shape := ⟨2, ![1024, 2048]⟩

abbrev nBuf : Space → Nat
  | .hbm => 20
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S16777216, .i32⟩
  | .hbm, ⟨3, _⟩ => ⟨S4096, .f32⟩
  | .hbm, ⟨4, _⟩ => ⟨S256, .bf16⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16777216, .i32⟩
  | .hbm, ⟨12, _⟩ => ⟨S16777216x1, .i32⟩
  | .hbm, ⟨13, _⟩ => ⟨S16777216, .bf16⟩
  | .hbm, ⟨14, _⟩ => ⟨S4096x4096, .bf16⟩
  | .hbm, ⟨15, _⟩ => ⟨S8192x4096, .f32⟩
  | .hbm, ⟨16, _⟩ => ⟨S8192x4096, .bf16⟩
  | .hbm, ⟨17, _⟩ => ⟨S1x4096, .f32⟩
  | .hbm, ⟨18, _⟩ => ⟨S8192x4096, .f32⟩
  | .hbm, ⟨19, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S4096x4096 : S16777216.ShapeCasts S4096x4096
  shapeCasts_S4x2048x4096_S8192x4096 : S4x2048x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  gather_S256_S16777216x1_S16777216_n_0_n_n_0_1_1_wf : GatherDims.WF S256 S16777216x1 S16777216 [] [0] [] [0] [] 1 ![1]
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def gather_S256_S16777216x1_S16777216_n_0_n_n_0_1_1 : GatherDims S256 S16777216x1 S16777216 where
  offsetDims := []
  collapsedSliceDims := [0]
  operandBatchingDims := []
  startIndicesBatchingDims := []
  startIndexMap := [0]
  indexVectorDim := 1
  sliceSizes := ![1]
  wf := gather_S256_S16777216x1_S16777216_n_0_n_n_0_1_1_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256 : Shape := ⟨1, ![256]⟩
abbrev S16777216 : Shape := ⟨1, ![16777216]⟩
abbrev S4096 : Shape := ⟨1, ![4096]⟩
abbrev S_ : Shape := ⟨0, ![]⟩
abbrev S16777216x1 : Shape := ⟨2, ![16777216, 1]⟩
abbrev S4096x4096 : Shape := ⟨2, ![4096, 4096]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S16777216, .i32⟩
  | .hbm, ⟨3, _⟩ => ⟨S4096, .f32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S16777216x1, .i32⟩
  | .hbm, ⟨12, _⟩ => ⟨S16777216, .f32⟩
  | .hbm, ⟨13, _⟩ => ⟨S4096x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S4096x4096 : S16777216.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256_S16777216x1_S16777216_n_0_n_n_0_1_1_wf : GatherDims.WF S256 S16777216x1 S16777216 [] [0] [] [0] [] 1 ![1]
  dot_S4x2048x4096_S4096x4096_S4x2048x4096_2_1_01_0_n_n_wf : DotDims.WF S4x2048x4096 S4096x4096 S4x2048x4096 [2] [1] [0, 1] [0] [] []

variable [Facts₀]

def gather_S256_S16777216x1_S16777216_n_0_n_n_0_1_1 : GatherDims S256 S16777216x1 S16777216 where
  offsetDims := []
  collapsedSliceDims := [0]
  operandBatchingDims := []
  startIndicesBatchingDims := []
  startIndexMap := [0]
  indexVectorDim := 1
  sliceSizes := ![1]
  wf := gather_S256_S16777216x1_S16777216_n_0_n_n_0_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.SumSplit.lean ====
/-
  Regrouping a finite sum by blocks of columns.

  A sum over `Fin 4096` is the sum of four sums over `Fin 1024`, block `k` collecting the terms at
  `1024 * k + j`. This holds in any commutative additive monoid — the extended reals among them — because it only
  re-indexes the sum along the bijection `Fin 4 × Fin 1024 ≃ Fin 4096`, `(k, j) ↦ 1024 * k + j`; nothing is
  cancelled or distributed, so no finiteness is needed.
-/
import Mathlib.Algebra.BigOperators.Fin
import Mathlib.Logic.Equiv.Fin.Basic

namespace Cert.SumSplit

/-- Column `j` of column block `k`: the contraction index `1024 * k + j`. -/
def blockCol (k : Fin 4) (j : Fin 1024) : Fin 4096 := ⟨1024 * k.val + j.val, by omega⟩

@[simp] theorem blockCol_val (k : Fin 4) (j : Fin 1024) : (blockCol k j).val = 1024 * k.val + j.val := rfl

/-- The sum over all 4096 columns is the sum over the four column blocks of the sums inside each block. -/
theorem sum_eq_sum_blocks {M : Type*} [AddCommMonoid M] (f : Fin 4096 → M) :
    ∑ i, f i = ∑ k : Fin 4, ∑ j : Fin 1024, f (blockCol k j) := by
  rw [← Fintype.sum_prod_type']
  refine (Fintype.sum_equiv (finProdFinEquiv : Fin 4 × Fin 1024 ≃ Fin 4096) (fun kj => f (blockCol kj.1 kj.2)) f ?_).symm
  intro kj
  refine congrArg f (Fin.ext ?_)
  rw [blockCol_val, finProdFinEquiv_apply_val]
  omega

/-- The same with the four blocks written out, in the order a left-to-right accumulation adds them. -/
theorem sum_eq_four_blocks {M : Type*} [AddCommMonoid M] (f : Fin 4096 → M) :
    ∑ i, f i = (∑ j : Fin 1024, f (blockCol 0 j)) + (∑ j : Fin 1024, f (blockCol 1 j))
      + (∑ j : Fin 1024, f (blockCol 2 j)) + (∑ j : Fin 1024, f (blockCol 3 j)) := by
  rw [sum_eq_sum_blocks, Fin.sum_univ_four]

end Cert.SumSplit
-- ==== Proof.LinearSpec.lean ====
/-
  The specification: a dense layer `y = x · Wᵀ + b` over the extended reals, index by index, in the two
  arrangements the two programs use, and the partial dot products a blocked accumulation passes through.

  * `linear2`: rows-by-features form. For `X : [8192, 4096]`, `W : [4096, 4096]` (out × in) and `B : [1, 4096]`,
    `linear2 X W B (r, o) = (∑ k, X (r, k) * W (o, k)) + B (0, o)`.
  * `linear3`: batch-by-sequence form, `X3 : [4, 2048, 4096]`, `B1 : [4096]`,
    `linear3 X3 W B1 (b, s, o) = (∑ k, X3 (b, s, k) * W (o, k)) + B1 o`.
  * Reshaping `[4, 2048, 4096] → [8192, 4096]` sends `(b, s, k)` to row `2048 * b + s`, and `[4096] → [1, 4096]`
    sends `o` to `(0, o)`; both keep the row-major position, so `linear2` of the reshaped operands, reshaped back,
    is `linear3` (`shapeCast_linear2`).
  * `partialDot X W r o n` is the dot product restricted to the first `n` blocks of 1024 columns. It starts at `0`,
    grows by one block's sum per step, and at `n = 4` is the whole sum (`partialDot_four`, by regrouping the sum:
    only commutativity and associativity of `+` on the extended reals are used).
-/
import Idealize.ShloMosaic.PureOps.Ideal
import Idealize.ShloMosaic.Lib.ValueIdx
import Idealize.ShloMosaic.Lib.Pipeline.Value
import proofs.«145040_j23802708754446_2_alg».proof.Proof.SumSplit

noncomputable section

namespace Cert.LinearSpec

open Idealize.ShloMosaic Idealize.ShloMosaic.ValueIdx Cert.SumSplit

abbrev SX : Shape := ⟨2, ![8192, 4096]⟩
abbrev SW : Shape := ⟨2, ![4096, 4096]⟩
abbrev SB : Shape := ⟨2, ![1, 4096]⟩
abbrev SX3 : Shape := ⟨3, ![4, 2048, 4096]⟩
abbrev SB1 : Shape := ⟨1, ![4096]⟩

/-- `x · Wᵀ + b` on `[8192, 4096]`: entry `(r, o)` is the dot product of row `r` of `X` with row `o` of `W`, plus `B (0, o)`. -/
def linear2 (X : SX.Idx → EReal) (W : SW.Idx → EReal) (B : SB.Idx → EReal) : SX.Idx → EReal :=
  fun i => (∑ k : Fin 4096, X (ix2 (i 0) k) * W (ix2 (i 1) k)) + B (ix2 (0 : Fin 1) (i 1))

/-- The same on `[4, 2048, 4096]`: entry `(b, s, o)` is the dot product of `X3 (b, s, ·)` with row `o` of `W`, plus `B1 o`. -/
def linear3 (X3 : SX3.Idx → EReal) (W : SW.Idx → EReal) (B1 : SB1.Idx → EReal) : SX3.Idx → EReal :=
  fun i => (∑ k : Fin 4096, X3 (ix3 (i 0) (i 1) k) * W (ix2 (i 2) k)) + B1 (ix1 (i 2))

/-- The row of the `[8192, 4096]` arrangement that holds `(b, s, ·)`: `2048 * b + s`. -/
def flatRow (b : Fin 4) (s : Fin 2048) : Fin 8192 := ⟨b.val * 2048 + s.val, by omega⟩

/-- `linear2` of the operands reshaped to rows-by-features, reshaped back to batch-by-sequence, is `linear3`. -/
theorem shapeCast_linear2 (X3 : SX3.Idx → EReal) (W : SW.Idx → EReal) (B1 : SB1.Idx → EReal)
    (hx : SX3.ShapeCasts SX) (hb : SB1.ShapeCasts SB) (ho : SX.ShapeCasts SX3) :
    shapeCast SX3 (linear2 (shapeCast SX X3 hx) W (shapeCast SB B1 hb)) ho = linear3 X3 W B1 := by
  funext i
  have h0 : (i 0).val < 4 := (i 0).isLt
  have h1 : (i 1).val < 2048 := (i 1).isLt
  have h2 : (i 2).val < 4096 := (i 2).isLt
  rw [shapeCast_apply _ ho i (ix2 (flatRow (i 0) (i 1)) (i 2))
    (by rw [Shape.rowMajor_val_two, Shape.rowMajor_val_three]; rfl)]
  unfold linear2 linear3
  refine congrArg₂ (· + ·) (Finset.sum_congr rfl fun k _ => congrArg (· * _) ?_) ?_
  · exact shapeCast_apply X3 hx _ (ix3 (i 0) (i 1) k)
      (by rw [Shape.rowMajor_val_two, Shape.rowMajor_val_three]; rfl)
  · exact shapeCast_apply B1 hb _ (ix1 (i 2))
      (by rw [Shape.rowMajor_val_one, Shape.rowMajor_val_two]; show (i 2).val = 0 * 4096 + (i 2).val; omega)

/-- Column `j` of column block `n`, for any natural `n` (reduced into range, so that the definition needs no bound;
    for `n < 4` no reduction happens: `colAt_eq`). -/
def colAt (n : ℕ) (j : Fin 1024) : Fin 4096 := ⟨(1024 * n + j.val) % 4096, Nat.mod_lt _ (by decide)⟩

theorem colAt_eq (k : Fin 4) (j : Fin 1024) : colAt k.val j = blockCol k j :=
  Fin.ext (by show (1024 * k.val + j.val) % 4096 = 1024 * k.val + j.val; omega)

/-- The sum of the products over column block `n`. -/
def blockDot (X : SX.Idx → EReal) (W : SW.Idx → EReal) (r : Fin 8192) (o : Fin 4096) (n : ℕ) : EReal :=
  ∑ j : Fin 1024, X (ix2 r (colAt n j)) * W (ix2 o (colAt n j))

/-- The dot product of row `r` of `X` with row `o` of `W` over the first `n` column blocks. -/
def partialDot (X : SX.Idx → EReal) (W : SW.Idx → EReal) (r : Fin 8192) (o : Fin 4096) (n : ℕ) : EReal :=
  ∑ k ∈ Finset.range n, blockDot X W r o k

theorem partialDot_one (X : SX.Idx → EReal) (W : SW.Idx → EReal) (r : Fin 8192) (o : Fin 4096) :
    partialDot X W r o 1 = blockDot X W r o 0 := by
  unfold partialDot; rw [Finset.sum_range_one]

theorem partialDot_succ (X : SX.Idx → EReal) (W : SW.Idx → EReal) (r : Fin 8192) (o : Fin 4096) (n : ℕ) :
    partialDot X W r o (n + 1) = partialDot X W r o n + blockDot X W r o n := by
  unfold partialDot; rw [Finset.sum_range_succ]

/-- Four column blocks make the whole dot product. -/
theorem partialDot_four (X : SX.Idx → EReal) (W : SW.Idx → EReal) (r : Fin 8192) (o : Fin 4096) :
    partialDot X W r o 4 = ∑ k : Fin 4096, X (ix2 r k) * W (ix2 o k) := by
  unfold partialDot blockDot
  rw [Finset.sum_range, sum_eq_sum_blocks (fun k => X (ix2 r k) * W (ix2 o k))]
  refine Finset.sum_congr rfl fun k _ => Finset.sum_congr rfl fun j _ => ?_
  rw [colAt_eq k j]

end Cert.LinearSpec

end
-- ==== Proof.Blocks.lean ====
/-
  The windows' blocks, read as entries of the whole arrays.

  The grid has 8 × 2 × 4 = 64 points, visited with the last axis fastest: point `t` has row block `t / 8`, feature
  block `(t / 4) % 2` and reduction position `t % 4`. At point `t`
  * the `x` window's `[1024, 1024]` block holds rows `1024 * (t / 8) + p` and columns `1024 * (t % 4) + j` of the
    `[8192, 4096]` array;
  * the `W` window's `[2048, 1024]` block holds rows `2048 * ((t / 4) % 2) + q` and the same columns of the
    `[4096, 4096]` array;
  * the bias window's `[1, 2048]` block holds entries `(0, 2048 * ((t / 4) % 2) + q)` of the `[1, 4096]` array;
  * the output window's `[1024, 2048]` block sits at rows `1024 * (t / 8) + p` and columns `2048 * ((t / 4) % 2) + q`.
  A block's coordinate in its array is always (block index) × (block size) + (coordinate inside the block).
-/
import proofs.«145040_j23802708754446_2_alg».proof.Proof.Gen.KernelIdeal.Frame
import proofs.«145040_j23802708754446_2_alg».proof.Proof.LinearSpec
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.LinearSpec

variable (m : (ℓ : Loc nD τ sig) → Buf (Elt Ideal) ℓ)

/-- The block indices of the four windows at every grid point, decided over the grid. -/
theorem index_facts : ∀ t : Fin cfg0.N,
    win0_0.index t (0 : Fin 2) = t.val / 8 ∧ win0_0.index t (1 : Fin 2) = t.val % 4
    ∧ win0_1.index t (0 : Fin 2) = (t.val / 4) % 2 ∧ win0_1.index t (1 : Fin 2) = t.val % 4
    ∧ win0_2.index t (0 : Fin 2) = 0 ∧ win0_2.index t (1 : Fin 2) = (t.val / 4) % 2
    ∧ win0_3.index t (0 : Fin 2) = t.val / 8 ∧ win0_3.index t (1 : Fin 2) = (t.val / 4) % 2 :=
  (by decide +kernel : ∀ t : Fin grid0.N, _)

/-- Row `p` of the row block of point `n` (reduced into range so that no bound is needed; none happens for `n < 64`). -/
def rowAt (n : ℕ) (p : Fin 1024) : Fin 8192 := ⟨(1024 * (n / 8) + p.val) % 8192, Nat.mod_lt _ (by decide)⟩

/-- Output feature `q` of the feature block of point `n`. -/
def featAt (n : ℕ) (q : Fin 2048) : Fin 4096 := ⟨(2048 * ((n / 4) % 2) + q.val) % 4096, Nat.mod_lt _ (by decide)⟩

/-- The `x` block at point `t`, entry `(p, j)`. -/
theorem xblk_apply (c : Dev nD) (t : Fin cfg0.N) (p j : Fin 1024) :
    (iblk m c 0 t : Vec Ideal S1024x1024 .bf16) (ix2 p j)
      = (V m c main_v10 : Vec Ideal S8192x4096 .bf16) (ix2 (rowAt t.val p) (colAt (t.val % 4) j)) := by
  have hN : t.val < 64 := lt_of_lt_of_eq t.isLt N_0
  obtain ⟨e0, e1, -⟩ := index_facts t
  show (V m c main_v10 : Vec Ideal S8192x4096 .bf16) (((cfg0.win 0).blk t).view.emb (ix2 p j)) = _
  refine congrArg (V m c main_v10 : Vec Ideal S8192x4096 .bf16) (funext fun a => Fin.ext ?_)
  match a with
  | ⟨0, _⟩ => show win0_0.index t (0 : Fin 2) * 1024 + 1 * p.val = (1024 * (t.val / 8) + p.val) % 8192; omega
  | ⟨1, _⟩ => show win0_0.index t (1 : Fin 2) * 1024 + 1 * j.val = (1024 * (t.val % 4) + j.val) % 4096; omega

/-- The `W` block at point `t`, entry `(q, j)`. -/
theorem wblk_apply (c : Dev nD) (t : Fin cfg0.N) (q : Fin 2048) (j : Fin 1024) :
    (iblk m c 1 t : Vec Ideal S2048x1024 .bf16) (ix2 q j)
      = (V m c main_v8 : Vec Ideal S4096x4096 .bf16) (ix2 (featAt t.val q) (colAt (t.val % 4) j)) := by
  have hN : t.val < 64 := lt_of_lt_of_eq t.isLt N_0
  obtain ⟨-, -, e0, e1, -⟩ := index_facts t
  show (V m c main_v8 : Vec Ideal S4096x4096 .bf16) (((cfg0.win 1).blk t).view.emb (ix2 q j)) = _
  refine congrArg (V m c main_v8 : Vec Ideal S4096x4096 .bf16) (funext fun a => Fin.ext ?_)
  match a with
  | ⟨0, _⟩ => show win0_1.index t (0 : Fin 2) * 2048 + 1 * q.val = (2048 * ((t.val / 4) % 2) + q.val) % 4096; omega
  | ⟨1, _⟩ => show win0_1.index t (1 : Fin 2) * 1024 + 1 * j.val = (1024 * (t.val % 4) + j.val) % 4096; omega

/-- The bias block at point `t`, entry `(0, q)`. -/
theorem bblk_apply (c : Dev nD) (t : Fin cfg0.N) (q : Fin 2048) :
    (iblk m c 2 t : Vec Ideal S1x2048 .f32) (ix2 (0 : Fin 1) q)
      = (V m c main_v11 : Vec Ideal S1x4096 .f32) (ix2 (0 : Fin 1) (featAt t.val q)) := by
  have hN : t.val < 64 := lt_of_lt_of_eq t.isLt N_0
  obtain ⟨-, -, -, -, e0, e1, -⟩ := index_facts t
  show (V m c main_v11 : Vec Ideal S1x4096 .f32) (((cfg0.win 2).blk t).view.emb (ix2 (0 : Fin 1) q)) = _
  refine congrArg (V m c main_v11 : Vec Ideal S1x4096 .f32) (funext fun a => Fin.ext ?_)
  match a with
  | ⟨0, _⟩ => show win0_2.index t (0 : Fin 2) * 1 + 1 * 0 = 0; omega
  | ⟨1, _⟩ => show win0_2.index t (1 : Fin 2) * 2048 + 1 * q.val = (2048 * ((t.val / 4) % 2) + q.val) % 4096; omega

/-- Where entry `(p, q)` of the output block at point `t` sits in the `[8192, 4096]` result array. -/
theorem oblk_emb (t : Fin cfg0.N) (p : Fin 1024) (q : Fin 2048) :
    (((cfg0.win 3).blk t).view.emb (ix2 p q) : S8192x4096.Idx) = ix2 (rowAt t.val p) (featAt t.val q) := by
  have hN : t.val < 64 := lt_of_lt_of_eq t.isLt N_0
  obtain ⟨-, -, -, -, -, -, e0, e1⟩ := index_facts t
  refine funext fun a => Fin.ext ?_
  match a with
  | ⟨0, _⟩ => show win0_3.index t (0 : Fin 2) * 1024 + 1 * p.val = (1024 * (t.val / 8) + p.val) % 8192; omega
  | ⟨1, _⟩ => show win0_3.index t (1 : Fin 2) * 2048 + 1 * q.val = (2048 * ((t.val / 4) % 2) + q.val) % 4096; omega

end Cert.KernelIdeal.Blocks

end
-- ==== Proof.Payload.lean ====
/-
  The kernel body's arithmetic, read at an index over the extended reals.

  The body has three stored values:
  * the reset value of the accumulator: every entry is `0`;
  * the accumulation step: entry `(p, q)` of the new accumulator is the old entry plus the product of the
    `[1024, 1024]` block of `x` with the transposed `[2048, 1024]` block of `W`, that is
    `acc (p, q) + ∑ j, xblk (p, j) * wblk (q, j)` — the matrix unit starts from a zero accumulator, so its result
    is the plain sum over the contracted axis;
  * the output value: entry `(p, q)` is the accumulator's entry plus the bias row's entry `(0, q)`, the row being
    broadcast down the 1024 rows.
-/
import proofs.«145040_j23802708754446_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The reset value: zero everywhere. -/
theorem pay1_apply (i : S1024x2048.Idx) : k0_pay1 (F := Ideal) i = 0 := by
  unfold k0_pay1
  simp only [shapeCast_self]
  exact Ideal.ofBits_zero_f32

/-- Axis 0 of the left operand is a free axis of the product: it carries the output's row. -/
theorem lhs_row (j : S1024x2048.Idx) (k : dot_S1024x1024_S2048x1024_S1024x2048_1_1_0_0_n_n.contr.Idx) :
    (dot_S1024x1024_S2048x1024_S1024x2048_1_1_0_0_n_n.lhsIdx j k 0).val = (j 0).val := by
  unfold DotDims.lhsIdx
  rw [dif_neg (show ¬(0 : Fin S1024x1024.rank) ∈ dot_S1024x1024_S2048x1024_S1024x2048_1_1_0_0_n_n.lhsBatch by decide),
    dif_pos (show (0 : Fin S1024x1024.rank) ∈ dot_S1024x1024_S2048x1024_S1024x2048_1_1_0_0_n_n.lhsNonContracting by decide)]
  rfl

/-- Axis 0 of the right operand (stored out × in) is its free axis: it carries the output's column. -/
theorem rhs_row (j : S1024x2048.Idx) (k : dot_S1024x1024_S2048x1024_S1024x2048_1_1_0_0_n_n.contr.Idx) :
    (dot_S1024x1024_S2048x1024_S1024x2048_1_1_0_0_n_n.rhsIdx j k 0).val = (j 1).val := by
  unfold DotDims.rhsIdx
  rw [dif_neg (show ¬(0 : Fin S2048x1024.rank) ∈ dot_S1024x1024_S2048x1024_S1024x2048_1_1_0_0_n_n.rhsBatch by decide),
    dif_pos (show (0 : Fin S2048x1024.rank) ∈ dot_S1024x1024_S2048x1024_S1024x2048_1_1_0_0_n_n.rhsNonContracting by decide)]
  rfl

/-- The left operand of the block product at output `(p, q)` and contraction index `k` is `(p, k)`. -/
theorem lhsIdx_eq (p : Fin 1024) (q : Fin 2048) (k : Fin 1024) :
    dot_S1024x1024_S2048x1024_S1024x2048_1_1_0_0_n_n.lhsIdx (ix2 p q)
      ((contrEquiv1 dot_S1024x1024_S2048x1024_S1024x2048_1_1_0_0_n_n 1024 rfl rfl).symm k) = ix2 p k := by
  have hk := contrEquiv1_symm_val dot_S1024x1024_S2048x1024_S1024x2048_1_1_0_0_n_n 1024 rfl rfl k
  refine funext fun a => Fin.ext ?_
  match a with
  | ⟨0, _⟩ => exact lhs_row _ _
  | ⟨1, _⟩ => exact (dot_S1024x1024_S2048x1024_S1024x2048_1_1_0_0_n_n.lhsIdx_val_of_single rfl _ _).trans hk

/-- The right operand is read at `(q, k)`: its second axis is the contracted one. -/
theorem rhsIdx_eq (p : Fin 1024) (q : Fin 2048) (k : Fin 1024) :
    dot_S1024x1024_S2048x1024_S1024x2048_1_1_0_0_n_n.rhsIdx (ix2 p q)
      ((contrEquiv1 dot_S1024x1024_S2048x1024_S1024x2048_1_1_0_0_n_n 1024 rfl rfl).symm k) = ix2 q k := by
  have hk := contrEquiv1_symm_val dot_S1024x1024_S2048x1024_S1024x2048_1_1_0_0_n_n 1024 rfl rfl k
  refine funext fun a => Fin.ext ?_
  match a with
  | ⟨0, _⟩ => exact rhs_row _ _
  | ⟨1, _⟩ => exact (dot_S1024x1024_S2048x1024_S1024x2048_1_1_0_0_n_n.rhsIdx_val_of_single rfl _ _).trans hk

/-- The accumulation step at `(p, q)`: the old entry plus the block's dot product over its 1024 columns. -/
theorem pay2_apply (acc : Vec Ideal S1024x2048 .f32) (xb : Vec Ideal S1024x1024 .bf16) (wb : Vec Ideal S2048x1024 .bf16)
    (p : Fin 1024) (q : Fin 2048) :
    k0_pay2 (F := Ideal) acc xb wb (ix2 p q) = acc (ix2 p q) + ∑ j : Fin 1024, xb (ix2 p j) * wb (ix2 q j) := by
  unfold k0_pay2
  simp only [shapeCast_self]
  show acc (ix2 p q) + FloatOps.matmul dot_S1024x1024_S2048x1024_S1024x2048_1_1_0_0_n_n none xb wb
    (constant (F := Ideal) S1024x2048 .f32 0x00000000#32) (ix2 p q) = _
  rw [Ideal.matmul_constant_zero_apply,
    ← Equiv.sum_comp (contrEquiv1 dot_S1024x1024_S2048x1024_S1024x2048_1_1_0_0_n_n 1024 rfl rfl).symm]
  refine congrArg (acc (ix2 p q) + ·) (Finset.sum_congr rfl fun k _ => ?_)
  rw [lhsIdx_eq, rhsIdx_eq]

/-- The output value at `(p, q)`: the accumulator's entry plus the bias row at column `q`. -/
theorem pay3_apply (acc : Vec Ideal S1024x2048 .f32) (bb : Vec Ideal S1x2048 .f32) (p : Fin 1024) (q : Fin 2048) :
    k0_pay3 (F := Ideal) acc bb (ix2 p q) = acc (ix2 p q) + bb (ix2 (0 : Fin 1) q) := by
  unfold k0_pay3
  simp only [shapeCast_self]
  show acc (ix2 p q) + broadcastTo S1024x2048 bb broadcasts_S1x2048_S1024x2048 (ix2 p q) = _
  refine congrArg (acc (ix2 p q) + ·) ?_
  refine broadcastTo_apply bb broadcasts_S1x2048_S1024x2048 (ix2 p q) (ix2 (0 : Fin 1) q) (fun a => ?_)
  match a with
  | ⟨0, _⟩ => show 0 = if (1 : Nat) = 1 then 0 else p.val; rw [if_pos rfl]
  | ⟨1, _⟩ => show q.val = if (2048 : Nat) = 1 then 0 else q.val; rw [if_neg (by decide)]

end Cert.KernelIdeal.Payload

end
-- ==== Proof.Pieces.lean ====
/-
  What each control case of the kernel body leaves behind, as values (for any float instance).

  The body runs in one of three cases, by the position `k` of the grid point along the reduction axis:
  * `k = 0`: the accumulator is reset to the zero block, then the step is applied to it — the accumulator ends at
    `step zero xblk wblk`;
  * `k = 1, 2`: the step is applied to what the previous point left, `acc` — the accumulator ends at `step acc xblk wblk`;
  * `k = 3`: the same step, after which the output block is stored as `addBias (step acc xblk wblk) bias`.
  Here `step` is the payload of the accumulator's store and `addBias` the payload of the output's store; every store
  and every load covers its whole buffer, so reading a buffer back gives exactly the last stored value.
-/
import proofs.«145040_j23802708754446_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- The zero offsets of a whole-buffer access. -/
theorem zeroOff : (![0, 0] : Fin 2 → Nat) = fun _ => 0 := funext fun a => by fin_cases a <;> rfl

/-- First point of a reduction run: reset, then one step. -/
theorem scratch_first (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x1024 .bf16) (x1 : Vec F S2048x1024 .bf16) (x2 : Vec F S1x2048 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) zeroOff, View.readCov_unit_zero (S := S1024x2048) _ zeroOff]
  simp only [View.readAt_eq_ld, harg3.read_unread, harg4.read_unread, View.ld_unit_zero (S := S1024x1024) zeroOff,
    View.ld_unit_zero (S := S2048x1024) zeroOff]

/-- A middle point: one step over what the point before left. -/
theorem scratch_middle (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x1024 .bf16) (x1 : Vec F S2048x1024 .bf16) (x2 : Vec F S1x2048 .f32) (xs0 : Vec F S1024x2048 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero zeroOff]
  simp only [View.readAt_eq_ld, harg3.read_unread, harg4.read_unread, harg7.read_unread,
    View.ld_unit_zero (S := S1024x1024) zeroOff, View.ld_unit_zero (S := S2048x1024) zeroOff,
    View.ld_unit_zero (S := S1024x2048) zeroOff]

/-- The last point, the accumulator: one more step. -/
theorem scratch_last (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x1024 .bf16) (x1 : Vec F S2048x1024 .bf16) (x2 : Vec F S1x2048 .f32) (xs0 : Vec F S1024x2048 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero zeroOff]
  simp only [View.readAt_eq_ld, harg3.read_unread, harg4.read_unread, harg7.read_unread,
    View.ld_unit_zero (S := S1024x1024) zeroOff, View.ld_unit_zero (S := S2048x1024) zeroOff,
    View.ld_unit_zero (S := S1024x2048) zeroOff]

/-- The last point, the output block: the final accumulator plus the bias row. -/
theorem out_last (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x1024 .bf16) (x1 : Vec F S2048x1024 .bf16) (x2 : Vec F S1x2048 .f32) (xs0 : Vec F S1024x2048 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero zeroOff, View.readCov_unit_zero (S := S1024x2048) _ zeroOff]
  simp only [View.readAt_eq_ld, harg3.read_unread, harg4.read_unread, harg5.read_unread, harg7.read_unread,
    View.ld_unit_zero (S := S1024x1024) zeroOff, View.ld_unit_zero (S := S2048x1024) zeroOff,
    View.ld_unit_zero (S := S1024x2048) zeroOff, View.ld_unit_zero (S := S1x2048) zeroOff]

end Cert.KernelIdeal.Pieces

end
-- ==== Proof.Accum.lean ====
/-
  The accumulator across the grid, and the block the kernel stores.

  Write `X`, `W`, `B` for the three arrays the region reads (rows × features of `x`, the weight matrix out × in,
  the bias as a row). For the point `t` with reduction position `k = t % 4`, row block `t / 8` and feature block
  `(t / 4) % 2`, entry `(p, q)` of the accumulator after the body at `t` is the dot product of row
  `r = 1024 * (t / 8) + p` of `X` with row `o = 2048 * ((t / 4) % 2) + q` of `W` over the first `k + 1` blocks of 1024
  columns (`acc_eq`). The proof is an induction on the point: at `k = 0` the accumulator is reset and gets block 0
  (`0 + s₀`), and at `k > 0` it gets block `k` on top of what the point before — same row and feature blocks,
  position `k - 1` — left. At `k = 3` all four blocks are in, the partial dot product is the whole one
  (`partialDot_four`), and the stored block is that plus the bias entry: `linear2 X W B` at `(r, o)` (`out_eq`).
-/
import proofs.«145040_j23802708754446_2_alg».proof.Proof.Blocks
import proofs.«145040_j23802708754446_2_alg».proof.Proof.Payload
import proofs.«145040_j23802708754446_2_alg».proof.Proof.Pieces

noncomputable section

namespace Cert.KernelIdeal.Accum

open Cert.KernelIdeal Cert.KernelIdeal.Gen Idealize.ShloMosaic Idealize.ShloMosaic.TcCoe Idealize.SL.Sem
open Idealize.ShloMosaic.ValueIdx Cert.LinearSpec Cert.KernelIdeal.Payload Cert.KernelIdeal.Pieces Cert.KernelIdeal.Blocks

/-- The first step of a run, over any arrays: the reset accumulator plus block 0. -/
theorem first_step (X : SX.Idx → EReal) (W : SW.Idx → EReal) (xb : Vec Ideal S1024x1024 .bf16) (wb : Vec Ideal S2048x1024 .bf16)
    (p : Fin 1024) (q : Fin 2048) (r : Fin 8192) (o : Fin 4096)
    (hx : ∀ j, xb (ix2 p j) = X (ix2 r (colAt 0 j))) (hw : ∀ j, wb (ix2 q j) = W (ix2 o (colAt 0 j))) :
    k0_pay2 (F := Ideal) (k0_pay1 (F := Ideal)) xb wb (ix2 p q) = partialDot X W r o 1 := by
  rw [pay2_apply, pay1_apply, zero_add, partialDot_one]
  unfold blockDot
  exact Finset.sum_congr rfl fun j _ => by rw [hx j, hw j]

/-- A later step: `n` blocks are in, block `n` is added. -/
theorem next_step (X : SX.Idx → EReal) (W : SW.Idx → EReal) (acc : Vec Ideal S1024x2048 .f32)
    (xb : Vec Ideal S1024x1024 .bf16) (wb : Vec Ideal S2048x1024 .bf16)
    (p : Fin 1024) (q : Fin 2048) (r : Fin 8192) (o : Fin 4096) (n : ℕ)
    (hacc : acc (ix2 p q) = partialDot X W r o n)
    (hx : ∀ j, xb (ix2 p j) = X (ix2 r (colAt n j))) (hw : ∀ j, wb (ix2 q j) = W (ix2 o (colAt n j))) :
    k0_pay2 (F := Ideal) acc xb wb (ix2 p q) = partialDot X W r o (n + 1) := by
  rw [pay2_apply, hacc, partialDot_succ]
  unfold blockDot
  exact congrArg (partialDot X W r o n + ·) (Finset.sum_congr rfl fun j _ => by rw [hx j, hw j])

variable (m : (ℓ : Loc nD τ sig) → Buf (Elt Ideal) ℓ)

/-- The three arrays as the region finds them. -/
abbrev Xof (c : Dev nD) : SX.Idx → EReal := (V m c main_v10 : Vec Ideal S8192x4096 .bf16)
abbrev Wof (c : Dev nD) : SW.Idx → EReal := (V m c main_v8 : Vec Ideal S4096x4096 .bf16)
abbrev Bof (c : Dev nD) : SB.Idx → EReal := (V m c main_v11 : Vec Ideal S1x4096 .f32)

/-- At the first point of a run (`t % 4 = 0`). -/
theorem acc_first (c : Dev nD) (t : Fin cfg0.N) (h0 : t.val % 4 = 0) (p : Fin 1024) (q : Fin 2048) :
    (outsAt0 m c t.val t.isLt).2 (ix2 p q) = partialDot (Xof m c) (Wof m c) (rowAt t.val p) (featAt t.val q) 1 := by
  have h1 : ¬t.val % 4 = 3 := by omega
  rw [outsAt0_A m c t h0 h1]
  dsimp only
  rw [scratch_first]
  exact first_step (Xof m c) (Wof m c) (iblk m c 0 t) (iblk m c 1 t) p q (rowAt t.val p) (featAt t.val q)
    (fun j => (xblk_apply m c t p j).trans (by rw [h0])) (fun j => (wblk_apply m c t q j).trans (by rw [h0]))

/-- At a later point of a run (`t % 4 ≠ 0`), from what the point before left. -/
theorem step_at (c : Dev nD) (t : Fin cfg0.N) (h0 : ¬t.val % 4 = 0) (p : Fin 1024) (q : Fin 2048)
    (acc : Vec Ideal S1024x2048 .f32)
    (hacc : acc (ix2 p q) = partialDot (Xof m c) (Wof m c) (rowAt (t.val - 1) p) (featAt (t.val - 1) q) ((t.val - 1) % 4 + 1)) :
    k0_pay2 (F := Ideal) acc (iblk m c 0 t) (iblk m c 1 t) (ix2 p q)
      = partialDot (Xof m c) (Wof m c) (rowAt t.val p) (featAt t.val q) (t.val % 4 + 1) := by
  have e1 : rowAt (t.val - 1) p = rowAt t.val p :=
    Fin.ext (by show (1024 * ((t.val - 1) / 8) + p.val) % 8192 = (1024 * (t.val / 8) + p.val) % 8192; omega)
  have e2 : featAt (t.val - 1) q = featAt t.val q :=
    Fin.ext (by show (2048 * (((t.val - 1) / 4) % 2) + q.val) % 4096 = (2048 * ((t.val / 4) % 2) + q.val) % 4096; omega)
  have e3 : (t.val - 1) % 4 + 1 = t.val % 4 := by omega
  rw [e1, e2, e3] at hacc
  exact next_step (Xof m c) (Wof m c) acc (iblk m c 0 t) (iblk m c 1 t) p q (rowAt t.val p) (featAt t.val q) (t.val % 4) hacc
    (fun j => xblk_apply m c t p j) (fun j => wblk_apply m c t q j)

/-- THE ACCUMULATOR after point `n`: the dot product over the first `n % 4 + 1` column blocks. -/
theorem acc_eq (c : Dev nD) (n : ℕ) : ∀ (hn : n < cfg0.N) (p : Fin 1024) (q : Fin 2048),
    (outsAt0 m c n hn).2 (ix2 p q) = partialDot (Xof m c) (Wof m c) (rowAt n p) (featAt n q) (n % 4 + 1) := by
  induction n with
  | zero => intro hn p q; exact acc_first m c ⟨0, hn⟩ rfl p q
  | succ n ih =>
    intro hn p q
    by_cases h0 : (n + 1) % 4 = 0
    · rw [h0]; exact acc_first m c ⟨n + 1, hn⟩ h0 p q
    · have hacc := ih (Nat.lt_of_succ_lt hn) p q
      by_cases h1 : (n + 1) % 4 = 3
      · rw [outsAt0_C m c ⟨n + 1, hn⟩ h0 h1]
        dsimp only
        rw [scratch_last]
        exact step_at m c ⟨n + 1, hn⟩ h0 p q (outsAt0 m c n (Nat.lt_of_succ_lt hn)).2 hacc
      · rw [outsAt0_B m c ⟨n + 1, hn⟩ h0 h1]
        dsimp only
        rw [scratch_middle]
        exact step_at m c ⟨n + 1, hn⟩ h0 p q (outsAt0 m c n (Nat.lt_of_succ_lt hn)).2 hacc

/-- THE STORED BLOCK at a last point (`t % 4 = 3`): the dense layer's value at the block's place in the array. -/
theorem out_eq (c : Dev nD) (t : Fin cfg0.N) (h1 : t.val % 4 = 3) (p : Fin 1024) (q : Fin 2048) :
    (outsAt0 m c t.val t.isLt).1 (ix2 p q)
      = linear2 (Xof m c) (Wof m c) (Bof m c) (ix2 (rowAt t.val p) (featAt t.val q)) := by
  have h0 : ¬t.val % 4 = 0 := by omega
  have hprev := acc_eq m c (t.val - 1) (Nat.lt_of_le_of_lt (Nat.sub_le _ _) t.isLt) p q
  rw [outsAt0_C m c t h0 h1]
  dsimp only
  rw [out_last, pay3_apply, step_at m c t h0 p q _ hprev, bblk_apply, show t.val % 4 + 1 = 4 by omega, partialDot_four]
  rfl

end Cert.KernelIdeal.Accum

end
-- ==== Proof.ResultArray.lean ====
/-
  From the stored blocks to the result array, and the kernel's run read as a value.

  Only the last point of each reduction run (`t % 4 = 3`) writes its output block back. Such a point writes the
  `[1024, 2048]` tile of `linear2 X W B` at row block `t / 8` and feature block `(t / 4) % 2` (`flushed_eq`). Entry
  `(r, o)` of the `[8192, 4096]` result lies in the tile of the point `8 * (r / 1024) + 4 * (o / 2048) + 3`, which is
  such a last point, so the tiles cover the array and it ends holding `linear2 X W B` everywhere (`result2d`). The one
  operation after the region reshapes `[8192, 4096]` to `[4, 2048, 4096]`; `X` is the reshape of the input `x` (its
  conversion to a narrower float format is the identity on the extended reals) and `B` the reshape of the bias to a
  row, so the program's result is `linear3 x W bias` (`result3d`, by `shapeCast_linear2`).
-/
import proofs.«145040_j23802708754446_2_alg».proof.Proof.Accum
import Idealize.ShloMosaic.Lib.StableHlo.Run

noncomputable section

namespace Cert.KernelIdeal.ResultArray

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.LinearSpec Cert.KernelIdeal.Blocks Cert.KernelIdeal.Accum

variable (m : (ℓ : Loc nD τ sig) → Buf (Elt Ideal) ℓ) (ρ : Dev nD → PrngReg)

/-- WHAT A LAST POINT WRITES BACK: its tile of `linear2 X W B`. -/
theorem flushed_eq (c : Dev nD) (t : Fin cfg0.N) (hf : (cfg0.win 3).flush t = true) :
    (dats m 0 c).flushed 3 t
      = ((cfg0.win 3).blk t).view.read (Elt Ideal) (linear2 (Xof m c) (Wof m c) (Bof m c)) := by
  have h3 : t.val % 4 = 3 := (flush0_3 t).mp hf
  show (cfg0.win 3).cut (grid0.coords t) ((dats m 0 c).after 3 t) = _
  rw [after0_3]
  funext y
  obtain ⟨p, q, rfl⟩ : ∃ (p : Fin 1024) (q : Fin 2048), y = ix2 p q := ⟨y 0, y 1, eq_ix2 y⟩
  show (outsAt0 m c t.val t.isLt).1 (ix2 p q)
    = linear2 (Xof m c) (Wof m c) (Bof m c) (((cfg0.win 3).blk t).view.emb (ix2 p q))
  rw [oblk_emb]
  exact out_eq m c t h3 p q

/-- The last point whose tile holds entry `i` of the result. -/
def pointOf (i : S8192x4096.Idx) : Fin cfg0.N :=
  ⟨8 * ((i 0).val / 1024) + 4 * ((i 1).val / 2048) + 3, by
    have h0 : (i 0).val < 8192 := (i 0).isLt
    have h1 : (i 1).val < 4096 := (i 1).isLt
    rw [show cfg0.N = 64 from N_0]; omega⟩

/-- THE TILES COVER THE ARRAY. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hv : (pointOf i).val = 8 * ((i 0).val / 1024) + 4 * ((i 1).val / 2048) + 3 := rfl
  obtain ⟨-, -, -, -, -, -, e0, e1⟩ := index_facts (pointOf i)
  refine ⟨pointOf i, (flush0_3 (pointOf i)).mpr (by rw [hv]; omega), ?_⟩
  show i ∈ ((View.whole main_v12).slice (win0_3.rect (pointOf i))).set
  rw [View.set_slice_whole, Rect.mem_set_unit]
  intro a
  match a with
  | ⟨0, _⟩ =>
    show win0_3.index (pointOf i) (0 : Fin 2) * 1024 ≤ (i 0).val ∧ (i 0).val < win0_3.index (pointOf i) (0 : Fin 2) * 1024 + 1024
    rw [e0, hv]; omega
  | ⟨1, _⟩ =>
    show win0_3.index (pointOf i) (1 : Fin 2) * 2048 ≤ (i 1).val ∧ (i 1).val < win0_3.index (pointOf i) (1 : Fin 2) * 2048 + 2048
    rw [e1, hv]; omega

/-- THE RESULT ARRAY of the region: `linear2 X W B`. -/
theorem result2d (c : Dev nD) : (dats m 0 c).arrAt 3 cfg0.N = linear2 (Xof m c) (Wof m c) (Bof m c) :=
  (dats m 0 c).arrAt_eq_of_cover 3 (linear2 (Xof m c) (Wof m c) (Bof m c)) (flushed_eq m c) cover

/-! ## The arrays the region reads, from the arguments -/

theorem X_eq (c : Dev nD) : (V m c main_v10 : Vec Ideal S8192x4096 .bf16)
    = truncf (F := Ideal) .bf16 (shapeCast S8192x4096 (m ((c : Thread nD τ).loc main_arg0)) shapeCasts_S4x2048x4096_S8192x4096) bitsLt_bf16_f32 := by
  show StableHlo.after hostOps0 (fun b => m (c, b)) (Proc.devRef .tc main_v10) = _
  after_results
  rfl

theorem B_eq (c : Dev nD) : (V m c main_v11 : Vec Ideal S1x4096 .f32)
    = shapeCast S1x4096 (m ((c : Thread nD τ).loc main_arg3)) shapeCasts_S4096_S1x4096 := by
  show StableHlo.after hostOps0 (fun b => m (c, b)) (Proc.devRef .tc main_v11) = _
  after_results
  rfl

/-- The weight matrix: the codebook gathered at the labels (negative labels wrapped by 256 first), reshaped to
    out × in. The codebook's conversion to a narrower float format is the identity on the extended reals. -/
def weights (c : Dev nD) : Vec Ideal S4096x4096 .bf16 :=
  shapeCast S4096x4096 (Host.gather gather_S256_S16777216x1_S16777216_n_0_n_n_0_1_1
      (truncf (F := Ideal) .bf16 (m ((c : Thread nD τ).loc main_arg1)) bitsLt_bf16_f32)
      (broadcastInDim S16777216x1 ![0] bcast_S16777216_S16777216x1_0
        (select (cmpi .slt (m ((c : Thread nD τ).loc main_arg2)) (broadcastInDim S16777216 ![] bcast_S_S16777216 (constantI S_ 32 0#32)))
          (addi (m ((c : Thread nD τ).loc main_arg2)) (broadcastInDim S16777216 ![] bcast_S_S16777216 (constantI S_ 32 256#32)))
          (m ((c : Thread nD τ).loc main_arg2))))) shapeCasts_S16777216_S4096x4096

theorem W_eq (c : Dev nD) : (V m c main_v8 : Vec Ideal S4096x4096 .bf16) = weights m c := by
  show StableHlo.after hostOps0 (fun b => m (c, b)) (Proc.devRef .tc main_v8) = _
  after_results
  rfl

/-- THE PROGRAM'S RESULT: the reshape after the region of the region's result array, as `linear3` of the arguments. -/
theorem result3d (c : Dev nD) :
    Pipeline.afterTail₀ cfgs (dats m) 0 (V0 m) [hostOps1] c main_v13
      = linear3 (m ((c : Thread nD τ).loc main_arg0)) (weights m c) (m ((c : Thread nD τ).loc main_arg3)) := by
  unfold Pipeline.afterTail₀
  show StableHlo.after hostOps1 _ (Proc.devRef .tc main_v13) = _
  after_results
  rw [show Pipeline.withArrays spec0 c (V0 m c) (fun w => (dats m 0 c).arrAt w cfg0.N) (Proc.devRef .tc main_v12)
      = linear2 (Xof m c) (Wof m c) (Bof m c) from
    (Pipeline.withArrays_arr spec0 launch0.win.arr_inj c _ _ 3).trans (result2d m c)]
  unfold Xof Wof Bof
  rw [X_eq, B_eq, W_eq]
  exact shapeCast_linear2 (m ((c : Thread nD τ).loc main_arg0)) (weights m c) (m ((c : Thread nD τ).loc main_arg3))
    shapeCasts_S4x2048x4096_S8192x4096 shapeCasts_S4096_S1x4096 shapeCasts_S8192x4096_S4x2048x4096

/-- THE RUN, READ: every weakly fair execution terminates with the result at `linear3 x W bias` and the four
    arguments unchanged. -/
theorem run : θ_run defs (onTc (τ := τ) (main (F := Ideal))) ⟨m, fun _ => 0, ρ⟩ fun r => ∀ c : Dev nD,
      r.2.mem ((c.tc : Thread nD τ).loc main_v13)
        = linear3 (m ((c : Thread nD τ).loc main_arg0)) (weights m c) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans (result3d m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.ResultArray

end
-- ==== Proof.RefSide.lean ====
/-
  The reference computes the dense layer: its result, read one operation at a time at an index, is `linear3` of
  the input `x`, the gathered-and-reshaped weight matrix and the bias.

  At index `(b, s, o)` the contraction is the sum over `k` of `x (b, s, k) * W (o, k)` (the weight matrix is stored
  out × in and contracted along its second axis), and the two broadcasts of the bias read `bias o`.
-/
import proofs.«145040_j23802708754446_2_alg».proof.Proof.Gen.ReferenceIdeal.Read
import proofs.«145040_j23802708754446_2_alg».proof.Proof.LinearSpec

noncomputable section

namespace Cert.ReferenceIdeal.RefSide

open Cert.ReferenceIdeal Cert.ReferenceIdeal.Gen Cert.ReferenceIdeal.Read Idealize.ShloMosaic Idealize.ShloMosaic.ValueIdx
open Cert.LinearSpec

/-- The reference's result is `linear3 x W bias` with `W` the reshaped gather of the codebook. -/
theorem result_eq (x0 : (⟨S4x2048x4096, .f32⟩ : BufTy).Contents (Elt Ideal)) (x1 : (⟨S256, .f32⟩ : BufTy).Contents (Elt Ideal))
    (x2 : (⟨S16777216, .i32⟩ : BufTy).Contents (Elt Ideal)) (x3 : (⟨S4096, .f32⟩ : BufTy).Contents (Elt Ideal)) :
    val_main_v11 (F := Ideal) x0 x1 x2 x3 = linear3 x0 (val_main_v7 (F := Ideal) x1 x2) x3 := by
  funext i
  have el : ∀ k : Fin 4096, lidx_main_v8 i k = ix3 (i 0) (i 1) k := fun k =>
    funext fun a => Fin.ext (by match a with | ⟨0, _⟩ => rfl | ⟨1, _⟩ => rfl | ⟨2, _⟩ => rfl)
  have er : ∀ k : Fin 4096, ridx_main_v8 i k = ix2 (i 2) k := fun k =>
    funext fun a => Fin.ext (by match a with | ⟨0, _⟩ => rfl | ⟨1, _⟩ => rfl)
  have eb : idx_main_v9 (idx_main_v10 i) = ix1 (i 2) :=
    funext fun a => Fin.ext (by match a with | ⟨0, _⟩ => rfl)
  rw [val_main_v11_apply, val_main_v8_apply, val_main_v10_apply, val_main_v9_apply, eb]
  simp only [el, er]
  rfl

end Cert.ReferenceIdeal.RefSide

end
-- ==== Proof.lean ====
/-
  A dense layer with a codebook-quantized weight matrix: `y = x · Wᵀ + bias`, where `W (o, i) = centroids[labels[4096 * o + i]]`
  (negative labels wrapped by 256 first), `x : [4, 2048, 4096]`, `W : [4096, 4096]` stored out × in, `bias : [4096]`.

  The kernel reshapes `x` to `[8192, 4096]`, tiles the product over a grid of 8 row blocks × 2 feature blocks × 4 blocks
  of 1024 contracted columns, keeps a `[1024, 2048]` accumulator across the 4 reduction steps of each output tile
  (reset at the first step, each step adding one block's product), adds the bias row at the last step, and reshapes the
  `[8192, 4096]` result back. The reference contracts all 4096 columns at once and adds the bias.

  Over the extended reals the two agree index by index. Both conversions to a narrower float format are the identity,
  both programs gather the same matrix `W`, and at `(b, s, o)` the kernel's value is
  `((((0 + s₀) + s₁) + s₂) + s₃) + bias o` with `s_k = ∑ j < 1024, x (b, s, 1024 k + j) * W (o, 1024 k + j)`, while the
  reference's is `(∑ i < 4096, x (b, s, i) * W (o, i)) + bias o`. The two sums are one sum regrouped along
  `i = 1024 k + j`; regrouping uses only that addition of extended reals is commutative and associative with neutral
  element `0`, so the inputs' finiteness is never used.

  The modules: SumSplit (the regrouping), LinearSpec (the layer as a function of its arguments, in both arrangements,
  and the partial dot products), Payload (the body's three stored values at an index), Pieces (what each of the body's
  three control cases leaves), Blocks (each window's block as entries of its array), Accum (the accumulator after
  every grid point, by induction on the point), ResultArray (the written-back tiles cover the result; the run as a
  value), RefSide (the reference's result as the same function). The three frames are the generated ones; the
  idealization rewrote nothing, so `preserves` is `True`.
-/
import proofs.«145040_j23802708754446_2_alg».proof.Defs
import proofs.«145040_j23802708754446_2_alg».proof.Proof.Gen.Kernel
import proofs.«145040_j23802708754446_2_alg».proof.Proof.Gen.Kernel.Skeleton
import proofs.«145040_j23802708754446_2_alg».proof.Proof.Gen.Kernel.Launch
import proofs.«145040_j23802708754446_2_alg».proof.Proof.Gen.Kernel.Points
import proofs.«145040_j23802708754446_2_alg».proof.Proof.Gen.Kernel.Frame
import proofs.«145040_j23802708754446_2_alg».proof.Proof.Gen.KernelIdeal
import proofs.«145040_j23802708754446_2_alg».proof.Proof.Gen.KernelIdeal.Skeleton
import proofs.«145040_j23802708754446_2_alg».proof.Proof.Gen.KernelIdeal.Launch
import proofs.«145040_j23802708754446_2_alg».proof.Proof.Gen.KernelIdeal.Points
import proofs.«145040_j23802708754446_2_alg».proof.Proof.Gen.KernelIdeal.Frame
import proofs.«145040_j23802708754446_2_alg».proof.Proof.Gen.ReferenceIdeal
import proofs.«145040_j23802708754446_2_alg».proof.Proof.Gen.ReferenceIdeal.Run
import proofs.«145040_j23802708754446_2_alg».proof.Proof.Gen.ReferenceIdeal.Read
import proofs.«145040_j23802708754446_2_alg».proof.Proof.Gen.Pre_finite_inputs
import proofs.«145040_j23802708754446_2_alg».proof.Proof.ResultArray
import proofs.«145040_j23802708754446_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments unchanged (the generated frame). -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at `linear3 x W bias` of arguments that agree: the kernel by its run read as a value, the
    reference by its operations read one at a time; the two gathered weight matrices are one term once the
    codebook's format conversion, the identity on the extended reals, is seen through. -/
theorem algebraic : Cert.algebraic_KernelIdeal_ReferenceIdeal := by
  intro m ρ m' ρ' _ hagree
  refine ⟨fun c => Cert.LinearSpec.linear3 (m ((c.tc : Thread Cert.KernelIdeal.nD Cert.KernelIdeal.τ).loc Cert.KernelIdeal.main_arg0))
      (Cert.KernelIdeal.ResultArray.weights m c)
      (m ((c.tc : Thread Cert.KernelIdeal.nD Cert.KernelIdeal.τ).loc Cert.KernelIdeal.main_arg3)),
    Cert.KernelIdeal.ResultArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefSide.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
